-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 18
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .bf16⟩
  | .hbm, ⟨14, _⟩ => ⟨S8192x4096, .bf16⟩
  | .hbm, ⟨15, _⟩ => ⟨S1x4096, .f32⟩
  | .hbm, ⟨16, _⟩ => ⟨S1x4096, .f32⟩
  | .hbm, ⟨17, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S_S4096x4096 : S_.BroadcastsInDim S4096x4096 (![] : Fin 0 → Fin S4096x4096.rank)
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v6) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .i1⟩
  | .hbm, ⟨8, _⟩ => ⟨S4096x4096, .f32⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KernelPieces.lean ====
/-
  What one grid point of the blocked product leaves behind, as values.

  The kernel walks a grid of 8 × 4 × 2 points: the last coordinate runs over the two halves of the contracted axis.  It
  keeps a running sum for the current 1024 × 1024 output tile in a scratch accumulator.  At a first-half point it stores
  the zero tile into the accumulator, reads it back, and adds the half's partial product: the accumulator ends holding
  `0 + A₀·B₀ᵀ`, and nothing is written to the output tile.  At a second-half point it adds the half's partial product to
  what the point before left, reads the sum back, adds the bias row and multiplies by the scale row: the accumulator
  ends holding `acc + A₁·B₁ᵀ` and the output tile `(acc + A₁·B₁ᵀ + bias) · scale`.

  Each statement below reads the stores the body's run found (the last store to a buffer decides its contents, and a
  load of a buffer just stored whole reads the stored value) and names the result by the body's arithmetic, at any
  float instance.
-/
import proofs.«171159_j43576738185533_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Every load and store of the body starts at the origin of its buffer. -/
theorem hz : (![0, 0] : Fin 2 → Nat) = fun _ => 0 := funext fun a => by fin_cases a <;> rfl

/-- SECOND HALF, the accumulator: over the running sum `xs` the point leaves `xs + x0 · x1ᵀ`. -/
theorem scratch_B (c : Dev nD) (i : grid0.Coords) (a3 : Memref sig .tc .vmem S1024x2048 .bf16) (h3 : a3.IsWhole)
    (a4 : Memref sig .tc .vmem S1024x2048 .bf16) (h4 : a4.IsWhole) (a5 : Memref sig .tc .vmem S1x1024 .f32) (h5 : a5.IsWhole)
    (a6 : Memref sig .tc .vmem S1x1024 .f32) (h6 : a6.IsWhole) (a7 : Memref sig .tc .vmem S1024x1024 .f32) (h7 : a7.IsWhole)
    (a8 : Memref sig .tc .vmem S1024x1024 .f32) (h8 : a8.IsWhole) (hc0 : ¬cond0_0 i) (hc1 : cond0_1 i)
    (x0 x1 : Vec F S1024x2048 .bf16) (x2 x3 : Vec F S1x1024 .f32) (xs : Vec F S1024x1024 .f32) :
    sout0_B_0 c i a3 h3 a4 h4 a5 h5 a6 h6 a7 h7 a8 h8 hc0 hc1 x0 x1 x2 x3 xs = k0_pay2 xs x0 x1 := by
  unfold sout0_B_0
  rw [View.read_writes_eq_canon _ _ _ (scover0_B_0 c i a3 h3 a4 h4 a5 h5 a6 h6 a7 h7 a8 h8 hc0 hc1 x0 x1 x2 x3 xs)]
  unfold kernelRun0_B
  dsimp only
  sl_unfold_words
  rw [View.canon_unit_zero hz]
  simp only [View.readAt_eq_ld, h8.read_unread, h3.read_unread, h4.read_unread, View.ld_unit_zero (S := S1024x1024) hz,
    View.ld_unit_zero (S := S1024x2048) hz]

/-- SECOND HALF, the output tile: the new running sum read back, plus the bias row `x3`, times the scale row `x2`. -/
theorem out_B (c : Dev nD) (i : grid0.Coords) (a3 : Memref sig .tc .vmem S1024x2048 .bf16) (h3 : a3.IsWhole)
    (a4 : Memref sig .tc .vmem S1024x2048 .bf16) (h4 : a4.IsWhole) (a5 : Memref sig .tc .vmem S1x1024 .f32) (h5 : a5.IsWhole)
    (a6 : Memref sig .tc .vmem S1x1024 .f32) (h6 : a6.IsWhole) (a7 : Memref sig .tc .vmem S1024x1024 .f32) (h7 : a7.IsWhole)
    (a8 : Memref sig .tc .vmem S1024x1024 .f32) (h8 : a8.IsWhole) (hc0 : ¬cond0_0 i) (hc1 : cond0_1 i)
    (x0 x1 : Vec F S1024x2048 .bf16) (x2 x3 : Vec F S1x1024 .f32) (xs : Vec F S1024x1024 .f32) :
    out0_B_4 c i a3 h3 a4 h4 a5 h5 a6 h6 a7 h7 a8 h8 hc0 hc1 x0 x1 x2 x3 xs = k0_pay3 (k0_pay2 xs x0 x1) x3 x2 := by
  unfold out0_B_4
  rw [View.read_writes_eq_canon _ _ _ (cover0_B_4 c i a3 h3 a4 h4 a5 h5 a6 h6 a7 h7 a8 h8 hc0 hc1 x0 x1 x2 x3 xs)]
  unfold kernelRun0_B
  dsimp only
  sl_unfold_words
  rw [View.canon_unit_zero (S := S1024x1024) hz, View.readCov_unit_zero (S := S1024x1024) _ hz]
  simp only [View.readAt_eq_ld, h8.read_unread, h3.read_unread, h4.read_unread, h5.read_unread, h6.read_unread,
    View.ld_unit_zero (S := S1024x1024) hz, View.ld_unit_zero (S := S1024x2048) hz, View.ld_unit_zero (S := S1x1024) hz]

/-- FIRST HALF, the accumulator: the zero tile stored and read back, plus `x0 · x1ᵀ`. -/
theorem scratch_A (c : Dev nD) (i : grid0.Coords) (a3 : Memref sig .tc .vmem S1024x2048 .bf16) (h3 : a3.IsWhole)
    (a4 : Memref sig .tc .vmem S1024x2048 .bf16) (h4 : a4.IsWhole) (a5 : Memref sig .tc .vmem S1x1024 .f32) (h5 : a5.IsWhole)
    (a6 : Memref sig .tc .vmem S1x1024 .f32) (h6 : a6.IsWhole) (a7 : Memref sig .tc .vmem S1024x1024 .f32) (h7 : a7.IsWhole)
    (a8 : Memref sig .tc .vmem S1024x1024 .f32) (h8 : a8.IsWhole) (hc0 : cond0_0 i) (hc1 : ¬cond0_1 i)
    (x0 x1 : Vec F S1024x2048 .bf16) (x2 x3 : Vec F S1x1024 .f32) :
    sout0_A_0 c i a3 h3 a4 h4 a5 h5 a6 h6 a7 h7 a8 h8 hc0 hc1 x0 x1 x2 x3 = k0_pay2 k0_pay1 x0 x1 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x2048) hz]

end Cert.KernelIdeal.Pieces

end
-- ==== Proof.KernelTile.lean ====
/-
  The output tile a second-half point hands back, in the body's arithmetic.

  Grid point `t` (of 64, the last grid coordinate fastest) is a second-half point exactly when `t` is odd, and then the
  point before it is the first-half point of the same output tile.  So the tile written back at an odd `t` is built from
  two consecutive points only: the zero tile, plus the partial product of the blocks staged at the point before, plus the
  partial product of the blocks staged at `t`, then the bias row added and the scale row multiplied in.
-/
import proofs.«171159_j43576738185533_2_alg».proof.Proof.KernelPieces

noncomputable section

open Idealize.ShloMosaic Idealize.ShloMosaic.TcCoe Idealize.SL.Sem
open Idealize.ShloMosaic.Pipeline (Dat)

namespace Cert.KernelIdeal.Tile

open Cert.KernelIdeal Cert.KernelIdeal.Gen

variable {F : FTy → Type} [FloatOps F]
variable (m : (ℓ : Loc nD τ sig) → Buf (Elt F) ℓ)

/-- What the buffers hold after a point depends on the point's position only. -/
theorem outsAt0_congr (c : Dev nD) (n n' : ℕ) (h : n < cfg0.N) (h' : n' < cfg0.N) (e : n = n') :
    outsAt0 m c n h = outsAt0 m c n' h' := by subst e; rfl

/-- After a first-half point `t'` (an even one) the accumulator holds `0 + A₀·B₀ᵀ` of that point's blocks. -/
theorem acc_even (c : Dev nD) (t' : Fin cfg0.N) (p0 : t'.val % 2 = 0) (p1 : ¬t'.val % 2 = 1) :
    (outsAt0 m c t'.val t'.isLt).2 = k0_pay2 k0_pay1 (iblk m c 0 t') (iblk m c 1 t') := by
  refine (congrArg Prod.snd (outsAt0_A m c t' p0 p1)).trans ?_
  dsimp only
  exact Pieces.scratch_A (F := F) c (grid0.coords t') (ms0_0 t') (hs0_0 t') (ms0_1 t') (hs0_1 t')
    (ms0_2 t') (hs0_2 t') (ms0_3 t') (hs0_3 t') (ms0_4 t') (hs0_4 t') scM0_0
    (Memref.isWhole_whole _) ((hcond0_0 t').mpr p0) (fun h => p1 ((hcond0_1 t').mp h))
    (iblk m c 0 t') (iblk m c 1 t') (iblk m c 2 t') (iblk m c 3 t')

/-- The same, for the point `t'` before an odd point `t`, in the form the next point reads it. -/
theorem acc_before_odd (c : Dev nD) (t t' : Fin cfg0.N) (h1 : t.val % 2 = 1) (hp : t'.val = t.val - 1) :
    (outsAt0 m c (t.val - 1) (Nat.lt_of_le_of_lt (Nat.sub_le _ _) t.isLt)).2
      = k0_pay2 k0_pay1 (iblk m c 0 t') (iblk m c 1 t') :=
  (congrArg Prod.snd (outsAt0_congr m c (t.val - 1) t'.val _ t'.isLt hp.symm)).trans
    (acc_even m c t' (by omega) (by omega))

/-- A second-half point's output tile over whatever the accumulator held: that, plus the point's partial product, plus
    the bias row, times the scale row. -/
theorem tile_over (c : Dev nD) (t : Fin cfg0.N) (h0 : ¬t.val % 2 = 0) (h1 : t.val % 2 = 1) :
    (outsAt0 m c t.val t.isLt).1
      = k0_pay3 (k0_pay2 (outsAt0 m c (t.val - 1) (Nat.lt_of_le_of_lt (Nat.sub_le _ _) t.isLt)).2 (iblk m c 0 t) (iblk m c 1 t))
          (iblk m c 3 t) (iblk m c 2 t) := by
  refine (congrArg Prod.fst (outsAt0_B m c t h0 h1)).trans ?_
  dsimp only
  exact Pieces.out_B (F := F) c (grid0.coords t) (ms0_0 t) (hs0_0 t) (ms0_1 t) (hs0_1 t) (ms0_2 t) (hs0_2 t) (ms0_3 t) (hs0_3 t)
    (ms0_4 t) (hs0_4 t) scM0_0 (Memref.isWhole_whole _) (fun h => h0 ((hcond0_0 t).mp h)) ((hcond0_1 t).mpr h1)
    (iblk m c 0 t) (iblk m c 1 t) (iblk m c 2 t) (iblk m c 3 t)
    (outsAt0 m c (t.val - 1) (Nat.lt_of_le_of_lt (Nat.sub_le _ _) t.isLt)).2

/-- The output tile after an odd point `t`, `t'` the point before it: both halves' partial products over the zero
    tile, then the bias row added and the scale row multiplied in. -/
theorem tile_odd (c : Dev nD) (t t' : Fin cfg0.N) (h1 : t.val % 2 = 1) (hp : t'.val = t.val - 1) :
    (outsAt0 m c t.val t.isLt).1
      = k0_pay3 (k0_pay2 (k0_pay2 k0_pay1 (iblk m c 0 t') (iblk m c 1 t')) (iblk m c 0 t) (iblk m c 1 t))
          (iblk m c 3 t) (iblk m c 2 t) :=
  (tile_over m c t (by omega) h1).trans
    (congrArg (fun a => k0_pay3 (k0_pay2 a (iblk m c 0 t) (iblk m c 1 t)) (iblk m c 3 t) (iblk m c 2 t))
      (acc_before_odd m c t t' h1 hp))

end Cert.KernelIdeal.Tile

end
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.TernarySpec.lean ====
/-
  The function both programs compute, and the one law between their two arrangements of it.

  With `X` the 8192 × 4096 input, `W` a 4096 × 4096 matrix of weights (here: already ternarized), `b` the bias and `s`
  the scale, entry `(p, q)` of the result is

      ( Σ_{k < 4096} X(p, k) · W(q, k)  +  b(q) ) · s(q)        on the extended reals.

  The reference takes the contraction whole.  The kernel takes it in two halves of 2048, the first added to zero and the
  second added to that: `(0 + Σ_{k < 2048} …) + Σ_{2048 ≤ k} …`.  The two agree by associativity and commutativity of the
  addition alone, so the law holds at the infinities too and no finiteness of the inputs is needed; bias and scale enter
  both sides in the same way and are not touched.
-/
import Idealize.ShloMosaic.PureOps.Ideal
import Idealize.ShloMosaic.Lib.ValueIdx
import proofs.«171159_j43576738185533_2_alg».proof.Proof.LibSumBlocks

noncomputable section

namespace Cert.TernaryLinear

open Idealize.ShloMosaic Idealize.ShloMosaic.ValueIdx

/-- Entry `(p, q)` of `(X · Wᵀ + b) · s`, bias and scale laid along the columns. -/
def linearAt (X : (⟨2, ![8192, 4096]⟩ : Shape).Idx → Ideal .f32) (W : (⟨2, ![4096, 4096]⟩ : Shape).Idx → Ideal .f32)
    (s b : (⟨1, ![4096]⟩ : Shape).Idx → Ideal .f32) (p : Fin 8192) (q : Fin 4096) : Ideal .f32 :=
  ((∑ k : Fin 4096, X (ix2 p k) * W (ix2 q k)) + b (ix1 q)) * s (ix1 q)

/-- The whole result array. -/
def linear (X : (⟨2, ![8192, 4096]⟩ : Shape).Idx → Ideal .f32) (W : (⟨2, ![4096, 4096]⟩ : Shape).Idx → Ideal .f32)
    (s b : (⟨1, ![4096]⟩ : Shape).Idx → Ideal .f32) : (⟨2, ![8192, 4096]⟩ : Shape).Idx → Ideal .f32 :=
  fun i => linearAt X W s b (i 0) (i 1)

theorem linear_ix2 (X : (⟨2, ![8192, 4096]⟩ : Shape).Idx → Ideal .f32) (W : (⟨2, ![4096, 4096]⟩ : Shape).Idx → Ideal .f32)
    (s b : (⟨1, ![4096]⟩ : Shape).Idx → Ideal .f32) (p : Fin 8192) (q : Fin 4096) :
    linear X W s b (ix2 p q) = linearAt X W s b p q := rfl

/-- A sum over 4096 positions taken in two halves of 2048, the first added to zero and the second to that, is the sum
    taken whole.  `g0` and `g1` are the halves: position `k` of the second half is position `2048 + k` of the whole. -/
theorem sum_two_halves (f : Fin 4096 → EReal) (g0 g1 : Fin 2048 → EReal)
    (h0 : ∀ k : Fin 2048, g0 k = f ⟨k.val, by omega⟩) (h1 : ∀ k : Fin 2048, g1 k = f ⟨2048 + k.val, by omega⟩) :
    (0 + ∑ k : Fin 2048, g0 k) + ∑ k : Fin 2048, g1 k = ∑ k : Fin 4096, f k := by
  rw [Cert.Lib.SumBlocks.sum_fin_blocks 2 2048 rfl f, Finset.sum_range_succ, Finset.sum_range_one, zero_add]
  congr 1
  · refine Finset.sum_congr rfl fun k _ => ?_
    have hk : 0 * 2048 + k.val < 4096 := by have := k.isLt; omega
    exact (h0 k).trans ((congrArg f (Fin.ext (by show k.val = 0 * 2048 + k.val; omega))).trans
      (Cert.Lib.SumBlocks.onNat_of_lt f _ hk).symm)
  · refine Finset.sum_congr rfl fun k _ => ?_
    have hk : 1 * 2048 + k.val < 4096 := by have := k.isLt; omega
    exact (h1 k).trans ((congrArg f (Fin.ext (by show 2048 + k.val = 1 * 2048 + k.val; omega))).trans
      (Cert.Lib.SumBlocks.onNat_of_lt f _ hk).symm)

end Cert.TernaryLinear

end
-- ==== Proof.LibRowsByRows.lean ====
/-
  Two layout facts and one product that an attention kernel's block meets, each read at an index written by its coordinates.

  A block `[1, 1, a, b]` that carries one batch and one head is cast to the matrix `[a, b]` (and a result matrix back):
  both casts keep the row-major position, so entry `(i, j)` of the matrix is entry `(0, 0, i, j)` of the block. The
  scores `q · kᵀ` are a product of an `[m, K]` matrix with an `[n, K]` matrix contracting the two SECOND axes (the keys are
  stored row by row, not transposed): at the ideal values, into the zero splat, entry `(p, q)` is the inner product of row
  `p` of the left operand with row `q` of the right one, `Σ_k l(p, k) · r(q, k)`. The record is given literally over any
  well-formedness witness, so a printed record of that form is an instance by unfolding its name. Nothing here mentions a
  program.
-/
import Idealize.ShloMosaic.PureOps.Ideal.Laws
import Idealize.ShloMosaic.Lib.Pipeline.Value
import Idealize.ShloMosaic.Lib.ValueIdx

noncomputable section

namespace Cert.RowsByRows

open Idealize.ShloMosaic Idealize.ShloMosaic.ValueIdx

/-! ## Two unit axes dropped or added by a shape cast -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-! ## A product with the right operand's rows: axis 1 contracted with axis 1 -/

/-- The literal record of an `[m, K] × [n, K]` product contracting the two second axes. -/
abbrev rowsByRows {m K n : ℕ}
    (wf : DotDims.WF (⟨2, ![m, K]⟩ : Shape) (⟨2, ![n, K]⟩ : Shape) (⟨2, ![m, n]⟩ : Shape) [1] [1] [0] [0] [] []) :
    DotDims (⟨2, ![m, K]⟩ : Shape) (⟨2, ![n, K]⟩ : Shape) (⟨2, ![m, n]⟩ : Shape) :=
  { lhsContracting := [1], rhsContracting := [1], lhsNonContracting := [0], rhsNonContracting := [0],
    lhsBatch := [], rhsBatch := [], wf := wf }

section
variable {m K n : ℕ}
  (wf : DotDims.WF (⟨2, ![m, K]⟩ : Shape) (⟨2, ![n, K]⟩ : Shape) (⟨2, ![m, n]⟩ : Shape) [1] [1] [0] [0] [] [])
  (j : (⟨2, ![m, n]⟩ : Shape).Idx) (k : (rowsByRows wf).contr.Idx)

/-- The left operand's row is the result's row. -/
theorem rbr_lhs_row : ((rowsByRows wf).lhsIdx j k 0).val = (j 0).val := by
  unfold DotDims.lhsIdx
  rw [dif_neg (show ¬(0 : Fin (⟨2, ![m, K]⟩ : Shape).rank) ∈ (rowsByRows wf).lhsBatch from List.not_mem_nil),
    dif_pos (show (0 : Fin (⟨2, ![m, K]⟩ : Shape).rank) ∈ (rowsByRows wf).lhsNonContracting from List.mem_singleton.mpr rfl)]
  rfl

/-- The left operand's column is the contracted coordinate. -/
theorem rbr_lhs_col : ((rowsByRows wf).lhsIdx j k 1).val = (k ⟨0, Nat.one_pos⟩).val :=
  (rowsByRows wf).lhsIdx_val_of_single rfl j k

/-- The right operand's row is the result's column. -/
theorem rbr_rhs_row : ((rowsByRows wf).rhsIdx j k 0).val = (j 1).val := by
  unfold DotDims.rhsIdx
  rw [dif_neg (show ¬(0 : Fin (⟨2, ![n, K]⟩ : Shape).rank) ∈ (rowsByRows wf).rhsBatch from List.not_mem_nil),
    dif_pos (show (0 : Fin (⟨2, ![n, K]⟩ : Shape).rank) ∈ (rowsByRows wf).rhsNonContracting from List.mem_singleton.mpr rfl)]
  rfl

/-- The right operand's column is the contracted coordinate. -/
theorem rbr_rhs_col : ((rowsByRows wf).rhsIdx j k 1).val = (k ⟨0, Nat.one_pos⟩).val :=
  (rowsByRows wf).rhsIdx_val_of_single rfl j k

end

/-- Entry (p, q) of the product into the zero splat is the inner product of row p of the left operand with row q of
    the right one. -/
theorem matmul_rowsByRows_apply {m K n : ℕ} {φ₁ φ₂ : FTy}
    (wf : DotDims.WF (⟨2, ![m, K]⟩ : Shape) (⟨2, ![n, K]⟩ : Shape) (⟨2, ![m, n]⟩ : Shape) [1] [1] [0] [0] [] [])
    (prec : Option ContractPrecision)
    (l : FVec Ideal (⟨2, ![m, K]⟩ : Shape) φ₁) (r : FVec Ideal (⟨2, ![n, K]⟩ : Shape) φ₂) (p : Fin m) (q : Fin n) :
    FloatOps.matmul (rowsByRows wf) prec l r (constant (⟨2, ![m, n]⟩ : Shape) .f32 0x00000000#32) (ix2 p q)
      = ∑ k : Fin K, l (ix2 p k) * r (ix2 q k) := by
  rw [Ideal.matmul_constant_zero_apply]
  rw [← Equiv.sum_comp (contrEquiv1 (rowsByRows wf) K rfl rfl).symm]
  refine Finset.sum_congr rfl fun k _ => ?_
  have hk := contrEquiv1_symm_val (rowsByRows wf) K rfl rfl k
  have el : (rowsByRows wf).lhsIdx (ix2 p q) ((contrEquiv1 (rowsByRows wf) K rfl rfl).symm k) = ix2 p k :=
    funext fun a => Fin.ext (by
      match a with
      | ⟨0, _⟩ => exact rbr_lhs_row wf _ _
      | ⟨1, _⟩ => exact (rbr_lhs_col wf _ _).trans hk)
  have er : (rowsByRows wf).rhsIdx (ix2 p q) ((contrEquiv1 (rowsByRows wf) K rfl rfl).symm k) = ix2 q k :=
    funext fun a => Fin.ext (by
      match a with
      | ⟨0, _⟩ => exact rbr_rhs_row wf _ _
      | ⟨1, _⟩ => exact (rbr_rhs_col wf _ _).trans hk)
  rw [el, er]

end Cert.RowsByRows

end
-- ==== Proof.TileEntry.lean ====
/-
  One entry of a finished output tile, on the extended reals.

  The body's arithmetic read at entry `(p, q)` of a 1024 × 1024 tile: the zero tile is `0` everywhere; adding a partial
  product `A · Bᵀ` of two 1024 × 2048 blocks adds `Σ_{k < 2048} A(p, k) · B(q, k)`; the bias and scale rows are read at
  column `q`.  If the blocks are the pieces of `X`, `W`, `b`, `s` that tile `(P, Q)` reads — rows `1024·P + p` of `X`,
  rows `1024·Q + q` of `W`, first the columns below 2048 and then the columns from 2048 on, and columns `1024·Q + q` of
  bias and scale — the entry is entry `(1024·P + p, 1024·Q + q)` of `(X · Wᵀ + b) · s`, by the two-halves law.
-/
import proofs.«171159_j43576738185533_2_alg».proof.Proof.Gen.KernelIdeal.Skeleton
import proofs.«171159_j43576738185533_2_alg».proof.Proof.TernarySpec
import proofs.«171159_j43576738185533_2_alg».proof.Proof.LibRowsByRows
import Idealize.ShloMosaic.Lib.ValueLayout
import Idealize.ShloMosaic.Lib.Pipeline.Value
import Idealize.ShloMosaic.PureOps.Ideal.Laws

noncomputable section

namespace Cert.KernelIdeal.Entry

open Cert.KernelIdeal Cert.KernelIdeal.Gen Idealize.ShloMosaic Idealize.ShloMosaic.ValueIdx Cert.TernaryLinear

/-- The zero tile is `0` at every entry. -/
theorem zero_tile_apply (j : S1024x1024.Idx) : k0_pay1 (F := Ideal) j = 0 := by
  unfold k0_pay1
  simp only [shapeCast_self]
  exact Ideal.ofBits_zero_f32

/-- Adding a partial product: entry `(p, q)` gains the inner product of row `p` of `A` with row `q` of `B`. -/
theorem add_product_apply (acc : Vec Ideal S1024x1024 .f32) (A B : Vec Ideal S1024x2048 .bf16) (p q : Fin 1024) :
    k0_pay2 (F := Ideal) acc A B (ix2 p q) = acc (ix2 p q) + ∑ k : Fin 2048, A (ix2 p k) * B (ix2 q k) := by
  unfold k0_pay2
  simp only [shapeCast_self]
  show acc (ix2 p q) + FloatOps.matmul (F := Ideal) (Cert.RowsByRows.rowsByRows Facts₀.dot_S1024x2048_S1024x2048_S1024x1024_1_1_0_0_n_n_wf) none A B
      (constant (F := Ideal) (⟨2, ![1024, 1024]⟩ : Shape) .f32 0x00000000#32) (ix2 p q) = _
  rw [Cert.RowsByRows.matmul_rowsByRows_apply]

/-- Bias and scale: entry `(p, q)` is `(acc(p, q) + bias(0, q)) · scale(0, q)`. -/
theorem bias_scale_apply (acc : Vec Ideal S1024x1024 .f32) (bias scale : Vec Ideal S1x1024 .f32) (p q : Fin 1024) :
    k0_pay3 (F := Ideal) acc bias scale (ix2 p q)
      = (acc (ix2 p q) + bias (ix2 (0 : Fin 1) q)) * scale (ix2 (0 : Fin 1) q) := by
  unfold k0_pay3
  simp only [shapeCast_self]
  show (acc (ix2 p q) + broadcastTo (⟨2, ![1024, 1024]⟩ : Shape) bias broadcasts_S1x1024_S1024x1024 (ix2 p q))
      * broadcastTo (⟨2, ![1024, 1024]⟩ : Shape) scale broadcasts_S1x1024_S1024x1024 (ix2 p q) = _
  rw [broadcastTo_1b_ab_apply, broadcastTo_1b_ab_apply]

/-- ENTRY `(p, q)` OF TILE `(P, Q)`.  `A0`, `A1` are the two column halves of rows `1024·P …` of `X`; `B0`, `B1` the two
    column halves of rows `1024·Q …` of `W`; `bias`, `scale` columns `1024·Q …` of `b`, `s`. -/
theorem tile_entry (X : (⟨2, ![8192, 4096]⟩ : Shape).Idx → Ideal .f32) (W : (⟨2, ![4096, 4096]⟩ : Shape).Idx → Ideal .f32)
    (s b : (⟨1, ![4096]⟩ : Shape).Idx → Ideal .f32)
    (A0 B0 A1 B1 : Vec Ideal S1024x2048 .bf16) (bias scale : Vec Ideal S1x1024 .f32)
    (r : Fin 8192) (cq : Fin 4096) (p q : Fin 1024)
    (hA0 : ∀ k : Fin 2048, A0 (ix2 p k) = X (ix2 r ⟨k.val, by omega⟩))
    (hA1 : ∀ k : Fin 2048, A1 (ix2 p k) = X (ix2 r ⟨2048 + k.val, by omega⟩))
    (hB0 : ∀ k : Fin 2048, B0 (ix2 q k) = W (ix2 cq ⟨k.val, by omega⟩))
    (hB1 : ∀ k : Fin 2048, B1 (ix2 q k) = W (ix2 cq ⟨2048 + k.val, by omega⟩))
    (hbias : bias (ix2 (0 : Fin 1) q) = b (ix1 cq)) (hscale : scale (ix2 (0 : Fin 1) q) = s (ix1 cq)) :
    k0_pay3 (F := Ideal) (k0_pay2 (k0_pay2 k0_pay1 A0 B0) A1 B1) bias scale (ix2 p q) = linearAt X W s b r cq := by
  rw [bias_scale_apply, add_product_apply, add_product_apply, zero_tile_apply, hbias, hscale]
  unfold linearAt
  rw [← sum_two_halves (fun k => X (ix2 r k) * W (ix2 cq k)) (fun k => A0 (ix2 p k) * B0 (ix2 q k))
    (fun k => A1 (ix2 p k) * B1 (ix2 q k)) (fun k => by rw [hA0 k, hB0 k]) (fun k => by rw [hA1 k, hB1 k])]

end Cert.KernelIdeal.Entry

end
-- ==== Proof.KernelOperands.lean ====
/-
  What the kernel's four operands hold when the region is entered.

  Before the kernel is launched the host ternarizes the weights — `sign(w)` where `|w| ≥ 0.1`, zero elsewhere, the very
  operations the reference applies — and narrows the result and `x` to bf16, and views scale and bias as one-row
  matrices.  On the extended reals a narrowing is the identity and a reshape keeps the row-major position, so entry by
  entry the operands are `x`, the reference's ternarized weights, and scale and bias at the column.
-/
import proofs.«171159_j43576738185533_2_alg».proof.Proof.Gen.KernelIdeal.Frame
import proofs.«171159_j43576738185533_2_alg».proof.Proof.Gen.ReferenceIdeal.Read
import Idealize.ShloMosaic.Lib.StableHlo.Run
import Idealize.ShloMosaic.Lib.ValueLayout
import Idealize.ShloMosaic.Lib.ValueIdx

noncomputable section

open Idealize.ShloMosaic Idealize.ShloMosaic.TcCoe Idealize.SL.Sem Idealize.ShloMosaic.ValueIdx

namespace Cert.KernelIdeal.Operands

open Cert.KernelIdeal Cert.KernelIdeal.Gen

variable (m : (ℓ : Loc nD τ sig) → Buf (Elt Ideal) ℓ)

/-- Operand 0 is `x` narrowed. -/
theorem V_x (c : Dev nD) : (V m c main_v6 : S8192x4096.Idx → Elt Ideal .bf16)
    = truncf (F := Ideal) (s := S8192x4096) (φ := .f32) .bf16 (m ((c : Thread nD τ).loc main_arg0)) Facts₀.bitsLt_bf16_f32 := by
  dsimp only [Gen.V]
  simp only [Gen.hostOps0, Gen.hostOps0_1, Gen.hostOps0_2, List.flatten_cons, List.flatten_nil, List.append_nil,
    List.cons_append, List.nil_append]
  after_results <;> rfl

/-- Operand 1 is the ternarized weights, narrowed: the reference's own ternarization of the same array. -/
theorem V_w (c : Dev nD) : (V m c main_v5 : S4096x4096.Idx → Elt Ideal .bf16)
    = truncf (F := Ideal) (s := S4096x4096) (φ := .f32) .bf16 (Cert.ReferenceIdeal.Read.val_main_v4 (F := Ideal) (m ((c : Thread nD τ).loc main_arg1))) Facts₀.bitsLt_bf16_f32 := by
  dsimp only [Gen.V]
  simp only [Gen.hostOps0, Gen.hostOps0_1, Gen.hostOps0_2, List.flatten_cons, List.flatten_nil, List.append_nil,
    List.cons_append, List.nil_append]
  after_results <;> rfl

/-- Operand 2 is the scale as a one-row matrix. -/
theorem V_scale (c : Dev nD) : (V m c main_v8 : S1x4096.Idx → Elt Ideal .f32)
    = shapeCast S1x4096 (m ((c : Thread nD τ).loc main_arg2)) Facts₀.shapeCasts_S4096_S1x4096 := by
  dsimp only [Gen.V]
  simp only [Gen.hostOps0, Gen.hostOps0_1, Gen.hostOps0_2, List.flatten_cons, List.flatten_nil, List.append_nil,
    List.cons_append, List.nil_append]
  after_results <;> rfl

/-- Operand 3 is the bias as a one-row matrix. -/
theorem V_bias (c : Dev nD) : (V m c main_v7 : S1x4096.Idx → Elt Ideal .f32)
    = shapeCast S1x4096 (m ((c : Thread nD τ).loc main_arg3)) Facts₀.shapeCasts_S4096_S1x4096 := by
  dsimp only [Gen.V]
  simp only [Gen.hostOps0, Gen.hostOps0_1, Gen.hostOps0_2, List.flatten_cons, List.flatten_nil, List.append_nil,
    List.cons_append, List.nil_append]
  after_results <;> rfl

/-- Entry `(r, k)` of operand 0 is `x(r, k)`. -/
theorem V_x_apply (c : Dev nD) (r : Fin 8192) (k : Fin 4096) :
    (V m c main_v6 : S8192x4096.Idx → Elt Ideal .bf16) (ix2 r k) = m ((c : Thread nD τ).loc main_arg0) (ix2 r k) := by
  rw [V_x]; rfl

/-- Entry `(o, k)` of operand 1 is the ternarized weight `(o, k)`. -/
theorem V_w_apply (c : Dev nD) (o : Fin 4096) (k : Fin 4096) :
    (V m c main_v5 : S4096x4096.Idx → Elt Ideal .bf16) (ix2 o k)
      = Cert.ReferenceIdeal.Read.val_main_v4 (F := Ideal) (m ((c : Thread nD τ).loc main_arg1)) (ix2 o k) := by
  rw [V_w]; rfl

/-- Entry `(0, o)` of operand 2 is `scale(o)`. -/
theorem V_scale_apply (c : Dev nD) (u : Fin 1) (o : Fin 4096) :
    (V m c main_v8 : S1x4096.Idx → Elt Ideal .f32) (ix2 u o) = m ((c : Thread nD τ).loc main_arg2) (ix1 o) := by
  rw [V_scale]; exact shapeCast_a_1a_apply _ _ u o

/-- Entry `(0, o)` of operand 3 is `bias(o)`. -/
theorem V_bias_apply (c : Dev nD) (u : Fin 1) (o : Fin 4096) :
    (V m c main_v7 : S1x4096.Idx → Elt Ideal .f32) (ix2 u o) = m ((c : Thread nD τ).loc main_arg3) (ix1 o) := by
  rw [V_bias]; exact shapeCast_a_1a_apply _ _ u o

end Cert.KernelIdeal.Operands

end
-- ==== Proof.KernelResult.lean ====
/-
  The kernel's result array, whole.

  The 64 grid points are (row tile, column tile, half) with the half fastest, so point `t` works on row tile `t / 8`,
  column tile `t / 2 % 4` and half `t % 2`.  Only the second-half points write their tile back.  What such a point
  writes is, entry by entry, `(x · Tᵀ + bias) · scale` read through the tile — the two halves' blocks are the two column
  halves of the same rows of `x` and of the ternarized weights `T` — and the 32 tiles cover the 8192 × 4096 result.
  So the array the run ends with is that function of the four arguments.
-/
import proofs.«171159_j43576738185533_2_alg».proof.Proof.Gen.KernelIdeal.Value
import proofs.«171159_j43576738185533_2_alg».proof.Proof.KernelTile
import proofs.«171159_j43576738185533_2_alg».proof.Proof.TileEntry
import proofs.«171159_j43576738185533_2_alg».proof.Proof.KernelOperands

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.TernaryLinear

variable (m : (ℓ : Loc nD τ sig) → Buf (Elt Ideal) ℓ) (ρ : Dev nD → PrngReg)

/-- The result array as a function of the four argument arrays: `(x · Tᵀ + bias) · scale`, `T` the ternarized weights. -/
abbrev result (c : Dev nD) : S8192x4096.Idx → Elt Ideal .f32 :=
  linear (m ((c : Thread nD τ).loc main_arg0))
    (Cert.ReferenceIdeal.Read.val_main_v4 (F := Ideal) (m ((c : Thread nD τ).loc main_arg1)))
    (m ((c : Thread nD τ).loc main_arg2)) (m ((c : Thread nD τ).loc main_arg3))

/-- Which block of its array each operand reads at grid point `t` = (row tile, column tile, half), the half fastest:
    `x` block (row tile, half); weights block (column tile, half); scale and bias block (0, column tile); the result
    block (row tile, column tile). -/
theorem block_index : ∀ t : Fin cfg0.N,
    win0_0.index t (0 : Fin 2) = t.val / 8 ∧ win0_0.index t (1 : Fin 2) = t.val % 2
    ∧ win0_1.index t (0 : Fin 2) = t.val / 2 % 4 ∧ win0_1.index t (1 : Fin 2) = t.val % 2
    ∧ win0_2.index t (0 : Fin 2) = 0 ∧ win0_2.index t (1 : Fin 2) = t.val / 2 % 4
    ∧ win0_3.index t (0 : Fin 2) = 0 ∧ win0_3.index t (1 : Fin 2) = t.val / 2 % 4
    ∧ win0_4.index t (0 : Fin 2) = t.val / 8 ∧ win0_4.index t (1 : Fin 2) = t.val / 2 % 4 :=
  (by decide +kernel : ∀ t : Fin grid0.N, _)

/-- Entry `(p, k)` of the `x` block staged at `t` is `x(1024·(t / 8) + p, 2048·(t % 2) + k)`. -/
theorem x_block (c : Dev nD) (t : Fin cfg0.N) (p : Fin 1024) (k : Fin 2048) (r : Fin 8192) (kk : Fin 4096)
    (hr : r.val = t.val / 8 * 1024 + p.val) (hk : kk.val = t.val % 2 * 2048 + k.val) :
    (iblk m c 0 t : Vec Ideal S1024x2048 .bf16) (ix2 p k) = m ((c : Thread nD τ).loc main_arg0) (ix2 r kk) := by
  obtain ⟨e0, e1, -⟩ := block_index t
  rw [← Operands.V_x_apply m c r kk]
  show V m c main_v6 (((cfg0.win 0).blk t).view.emb (ix2 p k)) = _
  refine congrArg (V m c main_v6) (funext fun a => Fin.ext ?_)
  match a with
  | ⟨0, _⟩ => show win0_0.index t (0 : Fin 2) * 1024 + 1 * p.val = r.val; omega
  | ⟨1, _⟩ => show win0_0.index t (1 : Fin 2) * 2048 + 1 * k.val = kk.val; omega

/-- Entry `(q, k)` of the weights block staged at `t` is the ternarized weight `(1024·(t / 2 % 4) + q, 2048·(t % 2) + k)`. -/
theorem w_block (c : Dev nD) (t : Fin cfg0.N) (q : Fin 1024) (k : Fin 2048) (o : Fin 4096) (kk : Fin 4096)
    (ho : o.val = t.val / 2 % 4 * 1024 + q.val) (hk : kk.val = t.val % 2 * 2048 + k.val) :
    (iblk m c 1 t : Vec Ideal S1024x2048 .bf16) (ix2 q k)
      = Cert.ReferenceIdeal.Read.val_main_v4 (F := Ideal) (m ((c : Thread nD τ).loc main_arg1)) (ix2 o kk) := by
  obtain ⟨-, -, e2, e3, -⟩ := block_index t
  rw [← Operands.V_w_apply m c o kk]
  show V m c main_v5 (((cfg0.win 1).blk t).view.emb (ix2 q k)) = _
  refine congrArg (V m c main_v5) (funext fun a => Fin.ext ?_)
  match a with
  | ⟨0, _⟩ => show win0_1.index t (0 : Fin 2) * 1024 + 1 * q.val = o.val; omega
  | ⟨1, _⟩ => show win0_1.index t (1 : Fin 2) * 2048 + 1 * k.val = kk.val; omega

/-- Entry `(0, q)` of the scale row staged at `t` is `scale(1024·(t / 2 % 4) + q)`. -/
theorem scale_block (c : Dev nD) (t : Fin cfg0.N) (q : Fin 1024) (o : Fin 4096) (ho : o.val = t.val / 2 % 4 * 1024 + q.val) :
    (iblk m c 2 t : Vec Ideal S1x1024 .f32) (ix2 (0 : Fin 1) q) = m ((c : Thread nD τ).loc main_arg2) (ix1 o) := by
  obtain ⟨-, -, -, -, e4, e5, -⟩ := block_index t
  rw [← Operands.V_scale_apply m c (0 : Fin 1) o]
  show V m c main_v8 (((cfg0.win 2).blk t).view.emb (ix2 (0 : Fin 1) q)) = _
  refine congrArg (V m c main_v8) (funext fun a => Fin.ext ?_)
  match a with
  | ⟨0, _⟩ => show win0_2.index t (0 : Fin 2) * 1 + 1 * 0 = 0; omega
  | ⟨1, _⟩ => show win0_2.index t (1 : Fin 2) * 1024 + 1 * q.val = o.val; omega

/-- Entry `(0, q)` of the bias row staged at `t` is `bias(1024·(t / 2 % 4) + q)`. -/
theorem bias_block (c : Dev nD) (t : Fin cfg0.N) (q : Fin 1024) (o : Fin 4096) (ho : o.val = t.val / 2 % 4 * 1024 + q.val) :
    (iblk m c 3 t : Vec Ideal S1x1024 .f32) (ix2 (0 : Fin 1) q) = m ((c : Thread nD τ).loc main_arg3) (ix1 o) := by
  obtain ⟨-, -, -, -, -, -, e6, e7, -⟩ := block_index t
  rw [← Operands.V_bias_apply m c (0 : Fin 1) o]
  show V m c main_v7 (((cfg0.win 3).blk t).view.emb (ix2 (0 : Fin 1) q)) = _
  refine congrArg (V m c main_v7) (funext fun a => Fin.ext ?_)
  match a with
  | ⟨0, _⟩ => show win0_3.index t (0 : Fin 2) * 1 + 1 * 0 = 0; omega
  | ⟨1, _⟩ => show win0_3.index t (1 : Fin 2) * 1024 + 1 * q.val = o.val; omega

/-- WHAT A SECOND-HALF POINT WRITES BACK is its block of `result`: entry `(p, q)` of tile (row tile, column tile) is
    entry `(1024·(row tile) + p, 1024·(column tile) + q)` of `(x · Tᵀ + bias) · scale`. -/
theorem flushed_eq (c : Dev nD) (t : Fin cfg0.N) (hf : (cfg0.win 4).flush t = true) :
    (dats m 0 c).flushed 4 t = ((cfg0.win 4).blk t).view.read (Elt Ideal) (result m c) := by
  have h1 : t.val % 2 = 1 := (flush0_4 t).mp hf
  have hN : t.val < 64 := lt_of_lt_of_eq t.isLt N_0
  obtain ⟨t', hp⟩ : ∃ t' : Fin cfg0.N, t'.val = t.val - 1 :=
    ⟨⟨t.val - 1, Nat.lt_of_le_of_lt (Nat.sub_le _ _) t.isLt⟩, rfl⟩
  obtain ⟨-, -, -, -, -, -, -, -, e8, e9⟩ := block_index t
  rw [Value.flushed4, Tile.tile_odd m c t t' h1 hp]
  funext j
  obtain ⟨p, q, rfl⟩ : ∃ (p : Fin 1024) (q : Fin 1024), j = ix2 p q := ⟨j 0, j 1, eq_ix2 j⟩
  obtain ⟨r, hr⟩ : ∃ r : Fin 8192, r.val = t.val / 8 * 1024 + p.val := ⟨⟨t.val / 8 * 1024 + p.val, by omega⟩, rfl⟩
  obtain ⟨o, ho⟩ : ∃ o : Fin 4096, o.val = t.val / 2 % 4 * 1024 + q.val := ⟨⟨t.val / 2 % 4 * 1024 + q.val, by omega⟩, rfl⟩
  have hemb : ((cfg0.win 4).blk t).view.emb (ix2 p q) = ix2 r o := funext fun a => Fin.ext (by
    match a with
    | ⟨0, _⟩ => show win0_4.index t (0 : Fin 2) * 1024 + 1 * p.val = r.val; omega
    | ⟨1, _⟩ => show win0_4.index t (1 : Fin 2) * 1024 + 1 * q.val = o.val; omega)
  show k0_pay3 (F := Ideal) (k0_pay2 (k0_pay2 k0_pay1 (iblk m c 0 t') (iblk m c 1 t')) (iblk m c 0 t) (iblk m c 1 t))
      (iblk m c 3 t) (iblk m c 2 t) (ix2 p q) = result m c (((cfg0.win 4).blk t).view.emb (ix2 p q))
  rw [hemb]
  show _ = linearAt _ _ _ _ r o
  exact Entry.tile_entry (m ((c : Thread nD τ).loc main_arg0))
    (Cert.ReferenceIdeal.Read.val_main_v4 (F := Ideal) (m ((c : Thread nD τ).loc main_arg1)))
    (m ((c : Thread nD τ).loc main_arg2)) (m ((c : Thread nD τ).loc main_arg3))
    (iblk m c 0 t') (iblk m c 1 t') (iblk m c 0 t) (iblk m c 1 t) (iblk m c 3 t) (iblk m c 2 t) r o p q
    (fun k => x_block m c t' p k r ⟨k.val, by omega⟩ (by omega) (by show k.val = t'.val % 2 * 2048 + k.val; omega))
    (fun k => x_block m c t p k r ⟨2048 + k.val, by omega⟩ hr (by show 2048 + k.val = t.val % 2 * 2048 + k.val; omega))
    (fun k => w_block m c t' q k o ⟨k.val, by omega⟩ (by omega) (by show k.val = t'.val % 2 * 2048 + k.val; omega))
    (fun k => w_block m c t q k o ⟨2048 + k.val, by omega⟩ ho (by show 2048 + k.val = t.val % 2 * 2048 + k.val; omega))
    (bias_block m c t q o ho) (scale_block m c t q o ho)

/-- An index of the result array lies in point `t`'s block iff each coordinate lies in the block's range on its axis. -/
theorem mem_block (t : Fin cfg0.N) (i : S8192x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v9).slice (win0_4.rect t)).set ↔ _
  rw [View.set_slice_whole, Rect.mem_set_unit]
  exact Iff.rfl

/-- Every index of the result array lies in the block of a point that writes back: entry `(r, o)` in the block of the
    second-half point of tile `(r / 1024, o / 1024)`. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 64 := N_0
  obtain ⟨t, ht⟩ : ∃ t : Fin cfg0.N, t.val = ((i 0).val / 1024 * 4 + (i 1).val / 1024) * 2 + 1 :=
    ⟨⟨((i 0).val / 1024 * 4 + (i 1).val / 1024) * 2 + 1, by omega⟩, rfl⟩
  obtain ⟨-, -, -, -, -, -, -, -, e8, e9⟩ := block_index t
  refine ⟨t, (flush0_4 t).mpr (by omega), ?_⟩
  rw [mem_block]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-- THE RESULT ARRAY after the run is `(x · Tᵀ + bias) · scale`. -/
theorem final (c : Dev nD) : (dats m 0 c).arrAt 4 cfg0.N = result m c :=
  (dats m 0 c).arrAt_eq_of_cover 4 (result m c) (flushed_eq m c) covered

/-- The kernel's run: the result array at `result`, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.ReferenceValue.lean ====
/-
  The reference's result is the same function.

  Read one operation at a time, the reference computes at entry `(p, q)`: the contraction `Σ_k x(p, k) · T(q, k)` of row `p`
  of `x` with row `q` of its ternarized weights `T`, plus the bias laid along the columns (`bias(q)`), times the scale
  laid along the columns (`scale(q)`).  That is `(x · Tᵀ + bias) · scale` as stated, with no rearrangement at all.
-/
import proofs.«171159_j43576738185533_2_alg».proof.Proof.Gen.ReferenceIdeal.Read
import proofs.«171159_j43576738185533_2_alg».proof.Proof.TernarySpec

noncomputable section

namespace Cert.ReferenceIdeal.RefValue

open Cert.ReferenceIdeal Cert.ReferenceIdeal.Read Idealize.ShloMosaic Idealize.ShloMosaic.ValueIdx Cert.TernaryLinear

/-- The reference's last stage, as an array, is `(x · Tᵀ + bias) · scale` with `T` its own ternarized weights. -/
theorem reference_is_linear (x0 : S8192x4096.Idx → Ideal .f32) (x1 : S4096x4096.Idx → Ideal .f32)
    (x2 x3 : S4096.Idx → Ideal .f32) :
    val_main_v11 (F := Ideal) x0 x1 x2 x3 = linear x0 (val_main_v4 (F := Ideal) x1) x2 x3 := by
  funext i
  obtain ⟨p, q, rfl⟩ : ∃ (p : Fin 8192) (q : Fin 4096), i = ix2 p q := ⟨i 0, i 1, eq_ix2 i⟩
  have el : ∀ k : Fin 4096, lidx_main_v5 (ix2 p q) k = ix2 p k := fun k => funext fun a => Fin.ext (by
    match a with
    | ⟨0, _⟩ => rfl
    | ⟨1, _⟩ => rfl)
  have er : ∀ k : Fin 4096, ridx_main_v5 (ix2 p q) k = ix2 q k := fun k => funext fun a => Fin.ext (by
    match a with
    | ⟨0, _⟩ => rfl
    | ⟨1, _⟩ => rfl)
  have eb : idx_main_v6 (idx_main_v7 (ix2 p q)) = ix1 q := funext fun a => Fin.ext (by
    match a with
    | ⟨0, _⟩ => rfl)
  have es : idx_main_v9 (idx_main_v10 (ix2 p q)) = ix1 q := funext fun a => Fin.ext (by
    match a with
    | ⟨0, _⟩ => rfl)
  rw [val_main_v11_apply, val_main_v8_apply, val_main_v5_apply, val_main_v7_apply, val_main_v6_apply,
    val_main_v10_apply, val_main_v9_apply, linear_ix2]
  unfold linearAt
  simp only [el, er, eb, es, Ideal.mulf_def, Ideal.addf_def]

end Cert.ReferenceIdeal.RefValue

end
-- ==== Proof.lean ====
/-
  A ternary linear layer: `(x · Tᵀ + bias) · scale`, where `T = sign(w)` zeroed where `|w| < 0.1`.

  The kernel ternarizes the weights on the host with the operations the reference itself applies, narrows them and `x` to
  bf16 (the identity on the extended reals), and multiplies tile by tile on a grid of 8 × 4 output tiles, each tile's
  contraction over 4096 taken in two halves of 2048 accumulated in a scratch buffer; after the second half it adds the
  bias row, multiplies by the scale row, and writes the tile back.  The reference takes the contraction whole.  The two
  results are equal entry by entry because a sum taken in two consecutive halves, the first added to zero, is the sum
  taken whole — associativity and commutativity of addition only, which hold on the extended reals at the infinities
  too.  So the precondition (finite inputs) is never opened.

  The frames of the two kernel programs and the runs of all three programs are the generated modules'; written by hand
  are the values the two grid cases leave (KernelPieces, KernelTile), an output tile's entry on the extended reals
  (TileEntry, over TernarySpec's statement of the function and of the two-halves law), the operands as the region finds
  them (KernelOperands), the whole result array (KernelResult), and the reference's stages composed (ReferenceValue).
-/
import proofs.«171159_j43576738185533_2_alg».proof.Defs
import proofs.«171159_j43576738185533_2_alg».proof.Proof.Gen.Kernel
import proofs.«171159_j43576738185533_2_alg».proof.Proof.Gen.Kernel.Skeleton
import proofs.«171159_j43576738185533_2_alg».proof.Proof.Gen.Kernel.Launch
import proofs.«171159_j43576738185533_2_alg».proof.Proof.Gen.Kernel.Points
import proofs.«171159_j43576738185533_2_alg».proof.Proof.Gen.Kernel.Frame
import proofs.«171159_j43576738185533_2_alg».proof.Proof.Gen.KernelIdeal
import proofs.«171159_j43576738185533_2_alg».proof.Proof.Gen.KernelIdeal.Skeleton
import proofs.«171159_j43576738185533_2_alg».proof.Proof.Gen.KernelIdeal.Launch
import proofs.«171159_j43576738185533_2_alg».proof.Proof.Gen.KernelIdeal.Points
import proofs.«171159_j43576738185533_2_alg».proof.Proof.Gen.KernelIdeal.Frame
import proofs.«171159_j43576738185533_2_alg».proof.Proof.Gen.ReferenceIdeal
import proofs.«171159_j43576738185533_2_alg».proof.Proof.Gen.Pre_finite_inputs
import proofs.«171159_j43576738185533_2_alg».proof.Proof.Gen.KernelIdeal.Value
import proofs.«171159_j43576738185533_2_alg».proof.Proof.Gen.ReferenceIdeal.Run
import proofs.«171159_j43576738185533_2_alg».proof.Proof.Gen.ReferenceIdeal.Read
import proofs.«171159_j43576738185533_2_alg».proof.Proof.KernelResult
import proofs.«171159_j43576738185533_2_alg».proof.Proof.ReferenceValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals the kernel's result array is `(x · Tᵀ + bias) · scale` of its arguments, and so is the
    reference's of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.reference_is_linear,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
